-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x625000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 40
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S50000x128, .f32⟩
  | .hbm, ⟨20, _⟩ => ⟨S625000x1, .i32⟩
  | .hbm, ⟨21, _⟩ => ⟨S50000x128, .f32⟩
  | .hbm, ⟨22, _⟩ => ⟨S_, .i32⟩
  | .hbm, ⟨23, _⟩ => ⟨S625000, .i32⟩
  | .hbm, ⟨24, _⟩ => ⟨S_, .i32⟩
  | .hbm, ⟨25, _⟩ => ⟨S50000, .i32⟩
  | .hbm, ⟨26, _⟩ => ⟨S625000x1, .i32⟩
  | .hbm, ⟨27, _⟩ => ⟨S50000, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S1x128, .f32⟩
  | .hbm, ⟨37, _⟩ => ⟨S128x128, .bf16⟩
  | .hbm, ⟨38, _⟩ => ⟨S128x128, .bf16⟩
  | .hbm, ⟨39, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S50000x128, .f32⟩
  | .hbm, ⟨20, _⟩ => ⟨S625000x1, .i32⟩
  | .hbm, ⟨21, _⟩ => ⟨S50000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S50000, .f32⟩
  | .hbm, ⟨26, _⟩ => ⟨S625000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.Spec.lean ====
/-
  The layer the two programs compute, as a function of whole arrays, entry by entry.

  For node features x (N rows, 128 columns), neighbour sums S (same shape), two 128×128 weight matrices and a bias
  row, entry (p, q) of the result is

      x(p,q) + max( ( Σ_l mean(p,l) · W_l(l,q)  +  b(q) )  +  Σ_l x(p,l) · W_r(l,q) ,  0 ).

  One program forms the mean as S(p,l) · r(p), with r(p) a reciprocal prepared beforehand and stored as an N×1 column
  (and the bias as a 1×128 row); the other as the quotient S(p,l) / D(p) by a clamped degree D(p).  When
  r(p) = 1 / D(p) and D(p) ≠ 0 the two means are the same extended real — dividing by a nonzero extended real is
  multiplying by its reciprocal, whether or not anything is finite — so the two layers agree entry by entry.
  Sums of extended reals may be taken in any order, so nothing here depends on how a product is tiled.
-/
import Idealize.ShloMosaic.Lib.ValueIdx
import Idealize.ShloMosaic.PureOps.Ideal.Laws
import proofs.«116659_j31138512896564_2_alg».proof.Proof.LibRecipDiv

noncomputable section

open scoped BigOperators

namespace Cert.Sage

open Idealize.ShloMosaic Idealize.ShloMosaic.ValueIdx

/-- An a×b matrix of extended reals. -/
abbrev Mat (a b : ℕ) : Type := (⟨2, ![a, b]⟩ : Shape).Idx → EReal
/-- A length-a vector of extended reals. -/
abbrev Vc (a : ℕ) : Type := (⟨1, ![a]⟩ : Shape).Idx → EReal

/-- The number zero, spelt as the f32 word both programs print for it. -/
abbrev zeroW : EReal := Ideal.ofBits .f32 0x00000000#32

/-- Entry (p, q) of the layer, the mean formed with a stored reciprocal column `I` and the bias a row `b`. -/
def entryRecip {N : ℕ} (S x : Mat N 128) (I : Mat N 1) (Wl Wr : Mat 128 128) (b : Mat 1 128) (p : Fin N) (q : Fin 128) : EReal :=
  x (ix2 p q) + max (((∑ l : Fin 128, (S (ix2 p l) * I (ix2 p (0 : Fin 1))) * Wl (ix2 l q)) + b (ix2 (0 : Fin 1) q))
    + ∑ l : Fin 128, x (ix2 p l) * Wr (ix2 l q)) zeroW

/-- The layer with a stored reciprocal column, as a whole array. -/
def layerRecip {N : ℕ} (S x : Mat N 128) (I : Mat N 1) (Wl Wr : Mat 128 128) (b : Mat 1 128) : Mat N 128 :=
  fun i => entryRecip S x I Wl Wr b ⟨(i 0).val, (i 0).isLt⟩ ⟨(i 1).val, (i 1).isLt⟩

theorem layerRecip_apply {N : ℕ} (S x : Mat N 128) (I : Mat N 1) (Wl Wr : Mat 128 128) (b : Mat 1 128) (p : Fin N) (q : Fin 128) :
    layerRecip S x I Wl Wr b (ix2 p q) = entryRecip S x I Wl Wr b p q := rfl

/-- Entry (p, q) of the layer, the mean formed as a quotient by the degree vector `D` and the bias a vector `b`. -/
def entryDiv {N : ℕ} (S x : Mat N 128) (D : Vc N) (Wl Wr : Mat 128 128) (b : Vc 128) (p : Fin N) (q : Fin 128) : EReal :=
  x (ix2 p q) + max (((∑ l : Fin 128, Ideal.div (S (ix2 p l)) (D (ix1 p)) * Wl (ix2 l q)) + b (ix1 q))
    + ∑ l : Fin 128, x (ix2 p l) * Wr (ix2 l q)) zeroW

/-- The layer with a quotient by the degree, as a whole array. -/
def layerDiv {N : ℕ} (S x : Mat N 128) (D : Vc N) (Wl Wr : Mat 128 128) (b : Vc 128) : Mat N 128 :=
  fun i => entryDiv S x D Wl Wr b ⟨(i 0).val, (i 0).isLt⟩ ⟨(i 1).val, (i 1).isLt⟩

theorem layerDiv_apply {N : ℕ} (S x : Mat N 128) (D : Vc N) (Wl Wr : Mat 128 128) (b : Vc 128) (p : Fin N) (q : Fin 128) :
    layerDiv S x D Wl Wr b (ix2 p q) = entryDiv S x D Wl Wr b p q := rfl

/-- The two entries agree when the stored column is the reciprocal of a nonzero degree and the bias row is the bias
    vector: S · (1 / D) = S / D for D ≠ 0, term by term of the first sum. -/
theorem entryRecip_eq_entryDiv {N : ℕ} (S x : Mat N 128) (I : Mat N 1) (D : Vc N) (Wl Wr : Mat 128 128) (b2 : Mat 1 128) (b : Vc 128)
    (p : Fin N) (q : Fin 128) (hI : I (ix2 p (0 : Fin 1)) = Ideal.div 1 (D (ix1 p))) (hD : D (ix1 p) ≠ 0)
    (hb : b2 (ix2 (0 : Fin 1) q) = b (ix1 q)) :
    entryRecip S x I Wl Wr b2 p q = entryDiv S x D Wl Wr b p q := by
  unfold entryRecip entryDiv
  rw [hI, hb]
  have hsum : (∑ l : Fin 128, (S (ix2 p l) * Ideal.div 1 (D (ix1 p))) * Wl (ix2 l q))
      = ∑ l : Fin 128, Ideal.div (S (ix2 p l)) (D (ix1 p)) * Wl (ix2 l q) :=
    Finset.sum_congr rfl fun l _ => by rw [Cert.LibRecipDiv.mul_one_div _ _ hD]
  rw [hsum]

/-- So the two layers are one array under those conditions at every row and column. -/
theorem layerRecip_eq_layerDiv {N : ℕ} (S x : Mat N 128) (I : Mat N 1) (D : Vc N) (Wl Wr : Mat 128 128) (b2 : Mat 1 128) (b : Vc 128)
    (hI : ∀ p : Fin N, I (ix2 p (0 : Fin 1)) = Ideal.div 1 (D (ix1 p))) (hD : ∀ p : Fin N, D (ix1 p) ≠ 0)
    (hb : ∀ q : Fin 128, b2 (ix2 (0 : Fin 1) q) = b (ix1 q)) :
    layerRecip S x I Wl Wr b2 = layerDiv S x D Wl Wr b := by
  funext i
  obtain ⟨p, q, rfl⟩ : ∃ (p : Fin N) (q : Fin 128), i = ix2 p q := ⟨i 0, i 1, eq_ix2 i⟩
  rw [layerRecip_apply, layerDiv_apply]
  exact entryRecip_eq_entryDiv S x I D Wl Wr b2 b p q (hI p) (hD p) (hb q)

end Cert.Sage

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelEntry.lean ====
/-
  What the kernel body computes, read at one entry of its output block.

  The body multiplies the block of neighbour sums by the block's reciprocal column (broadcast along the 128 lanes),
  multiplies the result by the first weight matrix and the block of node features by the second (two matrix products
  into zero accumulators), adds the bias row (broadcast down the 5000 rows) between them, clamps below at zero and adds
  the node features back.  Roundings to a narrower float format are the identity on the extended reals.  So entry (p, q) of
  what it stores is the layer's entry (p, q) formed with a stored reciprocal column, of the six blocks it loaded.
-/
import proofs.«116659_j31138512896564_2_alg».proof.Proof.Gen.KernelIdeal.Skeleton
import Idealize.ShloMosaic.Lib.Pipeline.Value
import Idealize.ShloMosaic.Lib.ValueLayout
import proofs.«116659_j31138512896564_2_alg».proof.Proof.Spec
import proofs.«116659_j31138512896564_2_alg».proof.Proof.LibPlainDot
import proofs.«116659_j31138512896564_2_alg».proof.Proof.LibColumn

noncomputable section

open scoped BigOperators

namespace Cert.KernelIdeal.Entry

open Cert.KernelIdeal Cert.KernelIdeal.Gen Idealize.ShloMosaic Idealize.ShloMosaic.ValueIdx

/-- The printed dimension numbers of both matrix products are those of a plain 5000×128 by 128×128 product. -/
theorem dot_plain : dot_S5000x128_S128x128_S5000x128_1_0_0_1_n_n = DotDims.plain 5000 128 128 := rfl

/-- A product of the printed dimension numbers into the zero accumulator, read at entry (p, q). -/
theorem matmul_entry {φ₁ φ₂ : FTy} (lhs : FVec Ideal S5000x128 φ₁) (rhs : FVec Ideal S128x128 φ₂) (p : Fin 5000) (q : Fin 128) :
    matmul (F := Ideal) dot_S5000x128_S128x128_S5000x128_1_0_0_1_n_n none lhs rhs (constant (F := Ideal) S5000x128 .f32 0x00000000#32) (ix2 p q)
      = ∑ l : Fin 128, lhs (ix2 p l) * rhs (ix2 l q) := by
  rw [dot_plain]
  exact Cert.LibPlainDot.matmul_zero_apply none lhs rhs p q

/-- The stored value at entry (p, q), from the six loaded blocks. -/
theorem pay_entry (x0 : FVec Ideal S5000x128 .f32) (x2 : FVec Ideal S5000x1 .f32) (x1 : FVec Ideal S5000x128 .f32)
    (x3 : FVec Ideal S128x128 .bf16) (x5 : FVec Ideal S128x128 .bf16) (x4 : FVec Ideal S1x128 .f32) (p : Fin 5000) (q : Fin 128) :
    k0_pay1 (F := Ideal) x0 x2 x1 x3 x5 x4 (ix2 p q) = Cert.Sage.entryRecip x0 x1 x2 x3 x5 x4 p q := by
  unfold k0_pay1 Cert.Sage.entryRecip
  simp only [shapeCast_self]
  rw [addf_apply, maximumf_apply, addf_apply, addf_apply, matmul_entry, matmul_entry, broadcast_apply,
    broadcastTo_1b_ab_apply, Ideal.ofBits_def]
  simp only [truncf_apply, mulf_apply, Cert.LibColumn.broadcastTo_a1_ab_apply]

end Cert.KernelIdeal.Entry

end
-- ==== Proof.KernelBlocks.lean ====
/-
  From the blocks each grid point writes to the whole output array.

  Grid point t stages rows 5000·t … 5000·t + 4999 of the neighbour sums, of the node features and of the reciprocal
  column, and the whole of the two weight matrices and of the bias row; it writes back rows 5000·t … 5000·t + 4999 of
  the output.  Row p of what it computes depends only on row p of its row blocks, so what it writes back is that
  block of ONE whole-array function — the layer with a stored reciprocal column — of the six arrays; the ten row blocks
  tile the 50000 rows, so the output array ends holding that function.
-/
import proofs.«116659_j31138512896564_2_alg».proof.Proof.Gen.KernelIdeal.Value
import Idealize.ShloMosaic.Lib.Pipeline.Value
import proofs.«116659_j31138512896564_2_alg».proof.Proof.KernelEntry

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Sage (Mat)

theorem hz : (![0, 0] : Fin 2 → Nat) = fun _ => 0 := funext fun a => by fin_cases a <;> rfl

/-- The printed index maps over the ten grid points: the three row-blocked inputs and the output are at block row t,
    block column 0; the weight matrices and the bias row are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p, column l of the neighbour sums' block at point t is row 5000·t + p of the array. -/
theorem read_blk0 (A : Mat 50000 128) (t : Fin cfg0.N) (p : Fin 5000) (l : Fin 128) (P : Fin 50000) (hP : P.val = 5000 * t.val + p.val) :
    ((cfg0.win 0).blk t).view.read (Elt Ideal) A (ix2 p l) = A (ix2 P l) := by
  obtain ⟨e0, e1, -⟩ := idx_facts t
  rw [View.read_apply]
  show A _ = A _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * l.val = l.val; rw [e1]; omega

/-- The same for the node features' block. -/
theorem read_blk1 (A : Mat 50000 128) (t : Fin cfg0.N) (p : Fin 5000) (l : Fin 128) (P : Fin 50000) (hP : P.val = 5000 * t.val + p.val) :
    ((cfg0.win 1).blk t).view.read (Elt Ideal) A (ix2 p l) = A (ix2 P l) := by
  obtain ⟨-, -, e0, e1, -⟩ := idx_facts t
  rw [View.read_apply]
  show A _ = A _
  congr 1
  funext a
  apply Fin.ext
  match a with
  | ⟨0, _⟩ => show win0_1.index t (0 : Fin 2) * 5000 + 1 * p.val = P.val; rw [e0, hP]; omega
  | ⟨1, _⟩ => show win0_1.index t (1 : Fin 2) * 128 + 1 * l.val = l.val; rw [e1]; omega

/-- Row p of the reciprocal column's block at point t is row 5000·t + p of the column. -/
theorem read_blk2 (A : Mat 50000 1) (t : Fin cfg0.N) (p : Fin 5000) (u : Fin 1) (P : Fin 50000) (hP : P.val = 5000 * t.val + p.val) :
    ((cfg0.win 2).blk t).view.read (Elt Ideal) A (ix2 p u) = A (ix2 P u) := by
  obtain ⟨-, -, -, -, e0, e1, -⟩ := idx_facts t
  rw [View.read_apply]
  show A _ = A _
  congr 1
  funext a
  apply Fin.ext
  match a with
  | ⟨0, _⟩ => show win0_2.index t (0 : Fin 2) * 5000 + 1 * p.val = P.val; rw [e0, hP]; omega
  | ⟨1, _⟩ => show win0_2.index t (1 : Fin 2) * 1 + 1 * u.val = u.val; rw [e1]; omega

/-- The first weight matrix's block at every point is the whole matrix. -/
theorem read_blk3 (A : Mat 128 128) (t : Fin cfg0.N) (k : Fin 128) (q : Fin 128) :
    ((cfg0.win 3).blk t).view.read (Elt Ideal) A (ix2 k q) = A (ix2 k q) := by
  obtain ⟨-, -, -, -, -, -, e0, e1, -⟩ := idx_facts t
  rw [View.read_apply]
  show A _ = A _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block at every point is the whole row. -/
theorem read_blk4 (A : Mat 1 128) (t : Fin cfg0.N) (u : Fin 1) (q : Fin 128) :
    ((cfg0.win 4).blk t).view.read (Elt Ideal) A (ix2 u q) = A (ix2 u q) := by
  obtain ⟨-, -, -, -, -, -, -, -, e0, e1, -⟩ := idx_facts t
  rw [View.read_apply]
  show A _ = A _
  congr 1
  funext a
  apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-- The second weight matrix's block at every point is the whole matrix. -/
theorem read_blk5 (A : Mat 128 128) (t : Fin cfg0.N) (k : Fin 128) (q : Fin 128) :
    ((cfg0.win 5).blk t).view.read (Elt Ideal) A (ix2 k q) = A (ix2 k q) := by
  obtain ⟨-, -, -, -, -, -, -, -, -, -, e0, e1, -⟩ := idx_facts t
  rw [View.read_apply]
  show A _ = A _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- Row p of the output's block at point t is row 5000·t + p of the output. -/
theorem read_blk6 (A : Mat 50000 128) (t : Fin cfg0.N) (p : Fin 5000) (l : Fin 128) (P : Fin 50000) (hP : P.val = 5000 * t.val + p.val) :
    ((cfg0.win 6).blk t).view.read (Elt Ideal) A (ix2 p l) = A (ix2 P l) := by
  obtain ⟨-, -, -, -, -, -, -, -, -, -, -, -, e0, e1⟩ := idx_facts t
  rw [View.read_apply]
  show A _ = A _
  congr 1
  funext a
  apply Fin.ext
  match a with
  | ⟨0, _⟩ => show win0_6.index t (0 : Fin 2) * 5000 + 1 * p.val = P.val; rw [e0, hP]; omega
  | ⟨1, _⟩ => show win0_6.index t (1 : Fin 2) * 128 + 1 * l.val = l.val; rw [e1]; omega

/-- WHAT POINT t COMPUTES from the blocks of ANY six arrays is block t of the layer of those arrays: row p of the
    block's result reads row p of each row block, which is row 5000·t + p of its array. -/
theorem block_eq (A0 A1 : Mat 50000 128) (A2 : Mat 50000 1) (A3 A5 : Mat 128 128) (A4 : Mat 1 128) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (Cert.Sage.layerRecip A0 A1 A2 A3 A5 A4) := by
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  have hN : cfg0.N = 10 := N_0
  have hP : 5000 * t.val + p.val < 50000 := by have := t.isLt; have := p.isLt; omega
  show k0_pay1 _ _ _ _ _ _ (ix2 p q) = _
  rw [Cert.KernelIdeal.Entry.pay_entry, read_blk6 _ t p q ⟨_, hP⟩ rfl, Cert.Sage.layerRecip_apply]
  unfold Cert.Sage.entryRecip
  simp only [fun l => read_blk0 A0 t p l ⟨_, hP⟩ rfl, fun l => read_blk1 A1 t p l ⟨_, hP⟩ rfl, read_blk2 A2 t p (0 : Fin 1) ⟨_, hP⟩ rfl,
    read_blk3 A3 t, read_blk4 A4 t, read_blk5 A5 t]

/-- An index of the output is in point t's block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27).slice (win0_6.rect t)).set ↔ _
  rw [View.set_slice_whole, Rect.mem_set_unit]
  exact Iff.rfl

/-- THE COVER: row r of the output lies in the block of point r / 5000. -/
theorem cover6 (i : S50000x128.Idx) : ∃ t : Fin cfg0.N, (cfg0.win 6).flush t = true ∧ i ∈ ((cfg0.win 6).blk t).view.set := by
  have hN : cfg0.N = 10 := N_0
  have h0 : (i 0).val < 50000 := (i 0).isLt
  have h1 : (i 1).val < 128 := (i 1).isLt
  have ht : (i 0).val / 5000 < cfg0.N := by rw [hN]; omega
  obtain ⟨-, -, -, -, -, -, -, -, -, -, -, -, e0, e1⟩ := idx_facts ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]
    omega

variable (m : (ℓ : Loc nD τ sig) → Buf (Elt Ideal) ℓ) (ρ : Dev nD → PrngReg)

/-- What point t writes back is block t of the layer of the six arrays as the region finds them. -/
theorem flushed6_eq (c : Dev nD) (t : Fin cfg0.N) :
    (dats m 0 c).flushed 6 t = ((cfg0.win 6).blk t).view.read (Elt Ideal)
      (Cert.Sage.layerRecip (V m c (Pipeline.arrRef spec0 0)) (V m c (Pipeline.arrRef spec0 1)) (V m c (Pipeline.arrRef spec0 2))
        (V m c (Pipeline.arrRef spec0 3)) (V m c (Pipeline.arrRef spec0 5)) (V m c (Pipeline.arrRef spec0 4))) := by
  rw [Cert.KernelIdeal.Value.flushed6]
  unfold iblk
  exact block_eq _ _ _ _ _ _ t

/-- THE OUTPUT ARRAY after the run is the layer of the six arrays as the region finds them. -/
theorem final6 (c : Dev nD) :
    (dats m 0 c).arrAt 6 cfg0.N
      = Cert.Sage.layerRecip (V m c (Pipeline.arrRef spec0 0)) (V m c (Pipeline.arrRef spec0 1)) (V m c (Pipeline.arrRef spec0 2))
        (V m c (Pipeline.arrRef spec0 3)) (V m c (Pipeline.arrRef spec0 5)) (V m c (Pipeline.arrRef spec0 4)) :=
  (dats m 0 c).arrAt_eq_of_cover 6 _ (fun t _ => flushed6_eq m c t) cover6

end Cert.KernelIdeal.Blocks

end
-- ==== Proof.LibCountScatter.lean ====
/-
  Counting the landings of a scatter, two ways.

  Fix a scatter's dimension numbers, its index tensor, and an element i of the operand.  Let c be the number of update
  positions j whose result index is i (an update whose result index falls outside the operand lands nowhere).

  (a) The integer scatter that starts from the all-zero 32-bit operand and adds the word 1 at every landing update
      leaves the word c mod 2^32 at i: the left fold over the update positions in row-major order adds one to the
      element exactly at the positions that land on it, and addition of words is addition modulo 2^32.
  (b) The float scatter-add of the constant 1 into the all-zero operand is, at the ideal (extended-real) values,
      0 + (sum over the landing positions of 1) = c.

  There are at most as many landing positions as update positions, so when the update has fewer than 2^31 elements the
  word in (a) is c itself and reads back, as a signed integer, as c.  Hence converting (a) signed-integer-to-float
  gives (b), element by element.
-/
import Idealize.ShloMosaic.PureOps.Ideal.Laws

noncomputable section

namespace Cert.LibCountScatter

open Idealize.ShloMosaic

variable {s si u : Shape} {w : Nat}

/-- Folding the step "add the word 1 where the update lands" over ANY list of update positions, from ANY start r:
    the element at i ends as r i plus the number of listed positions whose result index is i (as a 32-bit word). -/
theorem foldl_count (d : ScatterDims s si u) (idx : IVec si w) (i : s.Idx) (l : List (Fin u.numel))
    (r : s.Idx → BitVec 32) :
    (l.foldl (fun r n =>
      match d.resultIdx? (u.rowMajor.symm n) idx with
      | some i0 => fun i' => if i' = i0 then IntOp.addi (r i0) (1#32) else r i'
      | none => r) r) i
    = r i + BitVec.ofNat 32
        ((l.map fun n => if d.resultIdx? (u.rowMajor.symm n) idx = some i then 1 else 0).sum) := by
  induction l generalizing r with
  | nil => simp
  | cons n l ih =>
    rw [List.foldl_cons, ih, List.map_cons, List.sum_cons, BitVec.ofNat_add, ← BitVec.add_assoc]
    congr 1
    cases h : d.resultIdx? (u.rowMajor.symm n) idx with
    | none => simp
    | some i0 =>
      by_cases hi : i = i0
      · subst hi; simp [IntOp.addi]
      · have hne : ¬ (i0 = i) := fun h' => hi h'.symm
        simp [hi, hne]

/-- The integer scatter of ones into zeros, as the fold above over all update positions in row-major order. -/
theorem scatter_eq_foldl (d : ScatterDims s si u) (idx : IVec si w) (i : s.Idx) :
    Host.scatter d IntOp.addi (fun _ => (0#32 : BitVec 32)) idx (fun _ => (1#32 : BitVec 32)) i
      = 0#32 + BitVec.ofNat 32
        (((List.finRange u.numel).map fun n =>
            if d.resultIdx? (u.rowMajor.symm n) idx = some i then 1 else 0).sum) :=
  foldl_count d idx i (List.finRange u.numel) (fun _ => 0#32)

/-- (a): the integer scatter of the word 1 into the zero operand holds, at i, the number of update positions whose
    result index is i, as a 32-bit word.  The list sum over row-major numbers is a sum over the numbers below the
    update's element count, re-indexed along the row-major numbering to a sum over the update's indices, and a sum of
    indicators is a cardinality. -/
theorem scatter_addi_ones (d : ScatterDims s si u) (idx : IVec si w) (i : s.Idx) :
    Host.scatter d IntOp.addi (fun _ => (0#32 : BitVec 32)) idx (fun _ => (1#32 : BitVec 32)) i
      = BitVec.ofNat 32 (Finset.univ.filter (fun j : u.Idx => d.resultIdx? j idx = some i)).card := by
  rw [scatter_eq_foldl, BitVec.zero_add, ← Fin.sum_univ_def, Finset.card_filter]
  congr 1
  exact Equiv.sum_comp u.rowMajor.symm (fun j => if d.resultIdx? j idx = some i then 1 else 0)

/-- No more positions land on i than there are update positions. -/
theorem count_le (d : ScatterDims s si u) (idx : IVec si w) (i : s.Idx) :
    (Finset.univ.filter (fun j : u.Idx => d.resultIdx? j idx = some i)).card ≤ u.numel := by
  calc (Finset.univ.filter (fun j : u.Idx => d.resultIdx? j idx = some i)).card
      ≤ (Finset.univ : Finset u.Idx).card := Finset.card_filter_le _ _
    _ = u.numel := by rw [Finset.card_univ, Shape.card_idx]

/-- A natural number below 2^31, as a 32-bit word, reads back as itself when read signed. -/
theorem toInt_ofNat_of_lt {c : Nat} (h : c < 2 ^ 31) : (BitVec.ofNat 32 c).toInt = (c : ℤ) := by
  rw [BitVec.toInt_eq_toNat_cond, BitVec.toNat_ofNat]
  have h1 : c % 2 ^ 32 = c := Nat.mod_eq_of_lt (by omega)
  rw [h1, if_pos (by omega)]

/-- The f32 word 0x3F800000 denotes the number one. -/
private theorem ofBits_one_f32 : Ideal.ofBits .f32 0x3F800000#32 = 1 := by
  simp [Ideal.ofBits, Ideal.ieee, -EReal.coe_mul]; norm_num

/-- At the ideal values, signed-integer-to-float is the integer itself, exactly. -/
theorem sitofp_ideal {φ : FTy} {n : Nat} (b : BitVec n) :
    FloatOps.sitofp (F := Ideal) φ b = ((b.toInt : ℝ) : EReal) := rfl

/-- At the ideal values, the float scatter-add is the operand plus the exact sum of the updates that land there. -/
theorem scatterAdd_ideal {φ : FTy} (d : ScatterDims s si u) (x : FVec Ideal s φ) (idx : IVec si w)
    (upd : FVec Ideal u φ) (i : s.Idx) :
    Host.scatterAdd (F := Ideal) d x idx upd i
      = x i + ∑ j ∈ Finset.univ.filter (fun j => d.resultIdx? j idx = some i), upd j := rfl

/-- (a) converted to float: with fewer than 2^31 update positions, the count itself. -/
theorem sitofp_scatter_ones_eq_card (d : ScatterDims s si u) (idx : IVec si w) (hN : u.numel < 2 ^ 31) (i : s.Idx) :
    FloatOps.sitofp (F := Ideal) .f32
        (Host.scatter d IntOp.addi (fun _ => (0#32 : BitVec 32)) idx (fun _ => (1#32 : BitVec 32)) i)
      = ((Finset.univ.filter (fun j : u.Idx => d.resultIdx? j idx = some i)).card : EReal) := by
  rw [scatter_addi_ones, sitofp_ideal, toInt_ofNat_of_lt (lt_of_le_of_lt (count_le d idx i) hN),
    Int.cast_natCast, EReal.coe_natCast]

/-- (b): the float scatter-add of the constant one into zeros is the count (no bound needed). -/
theorem scatterAdd_ones_eq_card (d : ScatterDims s si u) (idx : IVec si w) (i : s.Idx) :
    Host.scatterAdd (F := Ideal) (φ := .f32) d (fun _ => Ideal.ofBits .f32 0x00000000#32) idx
        (fun _ => Ideal.ofBits .f32 0x3F800000#32) i
      = ((Finset.univ.filter (fun j : u.Idx => d.resultIdx? j idx = some i)).card : EReal) := by
  rw [scatterAdd_ideal, Ideal.ofBits_zero_f32, ofBits_one_f32, zero_add, Finset.sum_const, nsmul_one]

/-- The two counts agree, element by element, when the update has fewer than 2^31 elements. -/
theorem sitofp_scatter_ones_eq_scatterAdd_ones (d : ScatterDims s si u) (idx : IVec si w)
    (hN : u.numel < 2 ^ 31) (i : s.Idx) :
    FloatOps.sitofp (F := Ideal) .f32
        (Host.scatter d IntOp.addi (fun _ => (0#32 : BitVec 32)) idx (fun _ => (1#32 : BitVec 32)) i)
      = Host.scatterAdd (F := Ideal) (φ := .f32) d (fun _ => Ideal.ofBits .f32 0x00000000#32) idx
          (fun _ => Ideal.ofBits .f32 0x3F800000#32) i := by
  rw [sitofp_scatter_ones_eq_card d idx hN i, scatterAdd_ones_eq_card d idx i]

/-- The same as an equation of whole tensors. -/
theorem sitofp_scatter_ones_eq_scatterAdd_ones_vec (d : ScatterDims s si u) (idx : IVec si w)
    (hN : u.numel < 2 ^ 31) :
    (sitofp .f32 (Host.scatter d IntOp.addi (fun _ => (0#32 : BitVec 32)) idx (fun _ => (1#32 : BitVec 32)))
        : FVec Ideal s .f32)
      = Host.scatterAdd (F := Ideal) (φ := .f32) d (fun _ => Ideal.ofBits .f32 0x00000000#32) idx
          (fun _ => Ideal.ofBits .f32 0x3F800000#32) :=
  funext fun i => sitofp_scatter_ones_eq_scatterAdd_ones d idx hN i

end Cert.LibCountScatter

end
-- ==== Proof.KernelHost.lean ====
/-
  What the kernel finds in its six staged arrays, as functions of the program's arguments.

  Before the kernel runs, the host gathers the source rows of the edges and adds them into their target rows (the
  neighbour sums: the very operations the reference applies to the same arguments, kept here as one unopened term),
  counts each node's incoming edges with an integer scatter of ones, converts the count to float, clamps it below at one
  and takes the reciprocal, stored as a 50000×1 column; it views the bias as a 1×128 row and rounds the two weight
  matrices to a narrower format (the identity on the extended reals).

  The reference counts the same edges with a float scatter-add of ones.  There are 625000 edges, fewer than 2^31, so the
  integer count read back as a float is the float count; hence entry p of the reciprocal column is one divided by the
  reference's clamped degree of node p, and that clamped degree, being at least one, is not zero.
-/
import proofs.«116659_j31138512896564_2_alg».proof.Proof.Gen.KernelIdeal.Frame
import proofs.«116659_j31138512896564_2_alg».proof.Proof.Gen.ReferenceIdeal.Read
import Idealize.ShloMosaic.Lib.StableHlo.Run
import Idealize.ShloMosaic.Lib.ValueIdx
import proofs.«116659_j31138512896564_2_alg».proof.Proof.LibCountScatter
import proofs.«116659_j31138512896564_2_alg».proof.Proof.LibRecipDiv
import proofs.«116659_j31138512896564_2_alg».proof.Proof.LibColumn

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

/-- The number one, spelt as the f32 word the programs print for it. -/
abbrev oneW : EReal := Ideal.ofBits .f32 0x3F800000#32

/-- The reciprocal column the kernel is given, from the edge index: one over the integer in-degree count, read as a
    float and clamped below at one, laid out as a 50000×1 column. -/
def recipCol (ei : S2x625000.Idx → BitVec 32) : S50000x1.Idx → EReal :=
  shapeCast S50000x1
    (Host.divf (F := Ideal) (φ := .f32) (fun _ => oneW)
      (maximumf (F := Ideal) (φ := .f32)
        (sitofp .f32 (Host.scatter scatter_S50000_S625000x1_S625000_n_0_0_1 IntOp.addi (fun _ => (0#32 : BitVec 32))
          (Cert.ReferenceIdeal.Read.val_main_v16 (F := Ideal) ei) (fun _ => (1#32 : BitVec 32))))
        (fun _ => oneW)))
    shapeCasts_S50000_S50000x1

variable (m : (ℓ : Loc nD τ sig) → Buf (Elt Ideal) ℓ)

/-- The bias row the kernel finds is the bias vector viewed as one row. -/
theorem found_bias (c : Dev nD) :
    (V m c main_v24 : S1x128.Idx → EReal) = shapeCast S1x128 (m ((c : Thread nD τ).loc main_arg3)) shapeCasts_S128_S1x128 := by
  dsimp only [Gen.V, Gen.hostOps0]
  after_results <;> rfl

/-- The first weight matrix the kernel finds is the argument, rounded to the narrower format. -/
theorem found_Wl (c : Dev nD) :
    (V m c main_v25 : S128x128.Idx → EReal) = truncf (F := Ideal) .bf16 (m ((c : Thread nD τ).loc main_arg2)) bitsLt_bf16_f32 := by
  dsimp only [Gen.V, Gen.hostOps0]
  after_results <;> rfl

/-- The second weight matrix the kernel finds is the argument, rounded to the narrower format. -/
theorem found_Wr (c : Dev nD) :
    (V m c main_v26 : S128x128.Idx → EReal) = truncf (F := Ideal) .bf16 (m ((c : Thread nD τ).loc main_arg4)) bitsLt_bf16_f32 := by
  dsimp only [Gen.V, Gen.hostOps0]
  after_results <;> rfl

/-- The neighbour sums the kernel finds are the reference's neighbour sums of the same two arguments: the same gather
    and scatter-add, operation for operation. -/
theorem found_sums (c : Dev nD) :
    (V m c main_v13 : S50000x128.Idx → EReal)
      = Cert.ReferenceIdeal.Read.val_main_v13 (F := Ideal) (m ((c : Thread nD τ).loc main_arg0)) (m ((c : Thread nD τ).loc main_arg1)) := by
  dsimp only [Gen.V, Gen.hostOps0]
  after_results <;> rfl

/-- The reciprocal column the kernel finds. -/
theorem found_recip (c : Dev nD) :
    (V m c main_v23 : S50000x1.Idx → EReal) = recipCol (m ((c : Thread nD τ).loc main_arg1)) := by
  dsimp only [Gen.V, Gen.hostOps0]
  after_results <;> rfl

/-- There are 625000 edges: fewer than 2^31. -/
theorem edges_lt : S625000.numel < 2 ^ 31 := by
  rw [show S625000.numel = 625000 from Shape.numel_rank1 _]
  norm_num

/-- The reference's float count of incoming edges is the float scatter-add of ones into zeros over the same index
    column the integer count uses (the two programs' dimension numbers are the same numbers). -/
theorem ref_count_eq (ei : S2x625000.Idx → BitVec 32) :
    Cert.ReferenceIdeal.Read.val_main_v17 (F := Ideal) ei
      = Host.scatterAdd (F := Ideal) (φ := .f32) scatter_S50000_S625000x1_S625000_n_0_0_1 (fun _ => Ideal.ofBits .f32 0x00000000#32)
          (Cert.ReferenceIdeal.Read.val_main_v16 (F := Ideal) ei) (fun _ => Ideal.ofBits .f32 0x3F800000#32) := rfl

/-- The reference clamps against the constant one. -/
theorem ref_one (i : S50000.Idx) : Cert.ReferenceIdeal.Read.val_main_v18 (F := Ideal) i = Ideal.ofBits .f32 0x3F800000#32 := rfl

/-- Entry p of the reciprocal column is one over the reference's clamped degree of node p: the integer count of the
    edges into p, read back as a float, is the float count. -/
theorem recip_entry (ei : S2x625000.Idx → BitVec 32) (p : Fin 50000) :
    recipCol ei (ix2 p (0 : Fin 1)) = Ideal.div 1 (Cert.ReferenceIdeal.Read.val_main_v19 (F := Ideal) ei (ix1 p)) := by
  have hcnt := Cert.LibCountScatter.sitofp_scatter_ones_eq_scatterAdd_ones scatter_S50000_S625000x1_S625000_n_0_0_1
    (Cert.ReferenceIdeal.Read.val_main_v16 (F := Ideal) ei) edges_lt (ix1 p)
  unfold recipCol
  rw [Cert.LibColumn.shapeCast_a_a1_apply]
  show Ideal.div (Ideal.ofBits .f32 0x3F800000#32) (max (FloatOps.sitofp (F := Ideal) .f32 _) (Ideal.ofBits .f32 0x3F800000#32)) = _
  rw [hcnt, Cert.ReferenceIdeal.Read.val_main_v19_apply, Ideal.maximumf_def, congrFun (ref_count_eq ei) (ix1 p), ref_one]
  rw [Cert.LibRecipDiv.ofBits_one_f32]

/-- The reference's clamped degree is not zero: it is at least one. -/
theorem degree_ne_zero (ei : S2x625000.Idx → BitVec 32) (p : Fin 50000) :
    Cert.ReferenceIdeal.Read.val_main_v19 (F := Ideal) ei (ix1 p) ≠ 0 := by
  rw [Cert.ReferenceIdeal.Read.val_main_v19_apply, Ideal.maximumf_def, ref_one]
  exact Cert.LibRecipDiv.max_oneWord_ne_zero _

end Cert.KernelIdeal.HostSide

end
-- ==== Proof.KernelValue.lean ====
/-
  The kernel's output array as a function of the program's arguments.

  The output is the layer formed with the stored reciprocal column, of the six arrays the kernel finds; those are the
  reference's neighbour sums, the node features, the column of reciprocals of the reference's clamped degrees, the two
  weight matrices and the bias as a row.  A reciprocal of a nonzero degree times a sum is that sum divided by the
  degree, so the output is the layer formed with the quotient, of the neighbour sums, the node features, the clamped
  degrees, the weights and the bias.
-/
import proofs.«116659_j31138512896564_2_alg».proof.Proof.KernelBlocks
import proofs.«116659_j31138512896564_2_alg».proof.Proof.KernelHost
import proofs.«116659_j31138512896564_2_alg».proof.Proof.Spec
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The output array after the run: the quotient-form layer of the arguments. -/
theorem value (c : Dev nD) :
    (dats m 0 c).arrAt 6 cfg0.N
      = Cert.Sage.layerDiv
          (Cert.ReferenceIdeal.Read.val_main_v13 (F := Ideal) (m ((c : Thread nD τ).loc main_arg0)) (m ((c : Thread nD τ).loc main_arg1)))
          (m ((c : Thread nD τ).loc main_arg0))
          (Cert.ReferenceIdeal.Read.val_main_v19 (F := Ideal) (m ((c : Thread nD τ).loc main_arg1)))
          (m ((c : Thread nD τ).loc main_arg2)) (m ((c : Thread nD τ).loc main_arg4)) (m ((c : Thread nD τ).loc main_arg3)) := by
  refine (Cert.KernelIdeal.Blocks.final6 m c).trans ?_
  show Cert.Sage.layerRecip (V m c main_v13) (V m c main_arg0) (V m c main_v23) (V m c main_v25) (V m c main_v26) (V m c main_v24) = _
  rw [Cert.KernelIdeal.HostSide.found_sums m c, V_main_arg0 m c, Cert.KernelIdeal.HostSide.found_recip m c,
    Cert.KernelIdeal.HostSide.found_Wl m c, Cert.KernelIdeal.HostSide.found_Wr m c, Cert.KernelIdeal.HostSide.found_bias m c]
  exact Cert.Sage.layerRecip_eq_layerDiv _ _ _ _ _ _ _ _
    (fun p => Cert.KernelIdeal.HostSide.recip_entry _ p)
    (fun p => Cert.KernelIdeal.HostSide.degree_ne_zero _ p)
    (fun q => shapeCast_a_1a_apply _ _ (0 : Fin 1) q)

end Cert.KernelIdeal.Whole

end
-- ==== Proof.RefLayer.lean ====
/-
  The reference program's last stage, entry by entry.

  Write S for the neighbour sums (N = 50000 rows, 128 columns) and D for the clamped degrees (one per row), both formed
  by the reference's earlier stages from the node features x and the edge list.  From there the reference computes:
  the quotient S(p,l) / D(p), the degree of row p repeated along the row; the product of that quotient with W_l, entry
  (p,q) being the sum over l of (S(p,l) / D(p)) · W_l(l,q); that plus the bias b(q), repeated down the column; the
  product of x with W_r, the sum over l of x(p,l) · W_r(l,q), added to it; the maximum of the result and zero; and
  x(p,q) added to that.  So entry (p,q) of its output is

      x(p,q) + max( ( Σ_l (S(p,l) / D(p)) · W_l(l,q)  +  b(q) )  +  Σ_l x(p,l) · W_r(l,q) ,  0 ),

  which is the layer with a quotient, as one whole array.  S and D stay as they are: nothing here looks inside them.
-/
import proofs.«116659_j31138512896564_2_alg».proof.Proof.Gen.ReferenceIdeal.Read
import proofs.«116659_j31138512896564_2_alg».proof.Proof.Spec

noncomputable section

open scoped BigOperators

namespace Cert.ReferenceIdeal.Layer

open Cert.ReferenceIdeal Cert.ReferenceIdeal.Read Idealize.ShloMosaic Idealize.ShloMosaic.ValueIdx
/-- Row p, column q of the last stage, written out from arbitrary operands S, x, D, W_l, b, W_r.  Each repeating or
    contracting stage reads its operand at an index built from p, q and the summation index l: the quotient at (p,l)
    with the degree at p, W_l and W_r at (l,q), the bias at q, x at (p,l).  With those indices named, the expression is
    the layer's entry: at the ideal values float addition, maximum and the host's division are the extended reals'
    +, max and quotient, and the zero word is the zero of the layer. -/
theorem entry_aux (S x0 : Cert.Sage.Mat 50000 128) (D : Cert.Sage.Vc 50000) (x2 x4 : Cert.Sage.Mat 128 128)
    (x3 : Cert.Sage.Vc 128) (p : Fin 50000) (q : Fin 128) :
    FloatOps.addf (F := Ideal) (φ := .f32) (x0 (ix2 p q))
      (FloatOps.maximumf
        (FloatOps.addf
          (FloatOps.addf
            (∑ k : Fin 128,
              FloatOps.hostDivf (F := Ideal) (φ := .f32) (S (lidx_main_v23 (ix2 p q) k))
                  (D (idx_main_v20 (idx_main_v21 (lidx_main_v23 (ix2 p q) k)))) *
                x2 (ridx_main_v23 (ix2 p q) k))
            (x3 (idx_main_v24 (idx_main_v25 (ix2 p q)))))
          (∑ k : Fin 128, x0 (lidx_main_v27 (ix2 p q) k) * x4 (ridx_main_v27 (ix2 p q) k)))
        (FloatOps.ofBits .f32 0x00000000#32))
      = Cert.Sage.entryDiv S x0 D x2 x4 x3 p q := by
  have e1 : ∀ k : Fin 128, lidx_main_v23 (ix2 p q) k = ix2 p k := fun k =>
    funext fun a => Fin.ext (by match a with | ⟨0, _⟩ => rfl | ⟨1, _⟩ => rfl)
  have e2 : ∀ k : Fin 128, ridx_main_v23 (ix2 p q) k = ix2 k q := fun k =>
    funext fun a => Fin.ext (by match a with | ⟨0, _⟩ => rfl | ⟨1, _⟩ => rfl)
  have e3 : ∀ k : Fin 128, idx_main_v20 (idx_main_v21 (ix2 p k)) = ix1 p := fun k =>
    funext fun a => Fin.ext (by match a with | ⟨0, _⟩ => rfl)
  have e4 : idx_main_v24 (idx_main_v25 (ix2 p q)) = ix1 q :=
    funext fun a => Fin.ext (by match a with | ⟨0, _⟩ => rfl)
  have e5 : ∀ k : Fin 128, lidx_main_v27 (ix2 p q) k = ix2 p k := fun k =>
    funext fun a => Fin.ext (by match a with | ⟨0, _⟩ => rfl | ⟨1, _⟩ => rfl)
  have e6 : ∀ k : Fin 128, ridx_main_v27 (ix2 p q) k = ix2 k q := fun k =>
    funext fun a => Fin.ext (by match a with | ⟨0, _⟩ => rfl | ⟨1, _⟩ => rfl)
  simp only [e1, e2, e3, e4, e5, e6]
  rfl

/-- The reference's output is the layer with a quotient, of the neighbour sums, the node features, the clamped degrees,
    the two weight matrices and the bias: equal as whole arrays, entry (p,q) by entry (p,q).  The first product's
    summand at l is the quotient stage at (p,l), which is the neighbour sum there over the degree stage read through
    its two repeats, at p. -/
theorem ref_is_layer (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4
      = Cert.Sage.layerDiv (val_main_v13 (F := Ideal) x0 x1) x0 (val_main_v19 (F := Ideal) x1) x2 x4 x3 := by
  funext i
  obtain ⟨p, q, rfl⟩ : ∃ (p : Fin 50000) (q : Fin 128), i = ix2 p q := ⟨i 0, i 1, eq_ix2 i⟩
  rw [Cert.Sage.layerDiv_apply, val_main_v30_apply, val_main_v29_apply, val_main_v28_apply, val_main_v26_apply,
    val_main_v23_apply, val_main_v27_apply, val_main_v25_apply, val_main_v24_apply, val_main_call0_v0_apply,
    val_main_call0_cst_apply]
  have hsum : (∑ k : Fin 128, val_main_v22 (F := Ideal) x0 x1 (lidx_main_v23 (ix2 p q) k) * x2 (ridx_main_v23 (ix2 p q) k))
      = ∑ k : Fin 128,
          FloatOps.hostDivf (F := Ideal) (φ := .f32) (val_main_v13 (F := Ideal) x0 x1 (lidx_main_v23 (ix2 p q) k))
              (val_main_v19 (F := Ideal) x1 (idx_main_v20 (idx_main_v21 (lidx_main_v23 (ix2 p q) k)))) *
            x2 (ridx_main_v23 (ix2 p q) k) :=
    Finset.sum_congr rfl fun k _ => by rw [val_main_v22_apply, val_main_v21_apply, val_main_v20_apply]
  rw [hsum]
  generalize val_main_v13 (F := Ideal) x0 x1 = S
  generalize val_main_v19 (F := Ideal) x1 = D
  exact entry_aux S x0 D x2 x4 x3 p q

end Cert.ReferenceIdeal.Layer

end
-- ==== Proof.lean ====
/-
  The certificate's five claims.

  Both programs take node features x, an edge index, two 128×128 weight matrices and a bias.  They first form the same
  neighbour sums S (gather the source rows of the edges, add them into the target rows) by the same host operations.
  The reference then computes, entry by entry,

      x(p,q) + max( ( Σ_l (S(p,l) / D(p)) · W_l(l,q) + b(q) ) + Σ_l x(p,l) · W_r(l,q) , 0 )

  with D(p) the number of edges into node p (a float sum of ones) clamped below at one.  The kernel's program counts the
  edges with integers, converts, clamps, takes the reciprocal r(p) on the host, and its kernel computes the same
  expression with S(p,l) · r(p) in place of the quotient, ten row blocks of 5000 at a time.  The integer count is the
  float count (625000 edges do not overflow a 32-bit word), D(p) ≥ 1 is not zero, and a sum times the reciprocal of a
  nonzero extended real is the sum divided by it; roundings to a narrower float format are the identity on the extended
  reals.  So the two results are one function of the arguments.  No finiteness of the inputs is used.

  The three frame claims are the generated frame runs (the reference's is its generated run with the result dropped);
  the idealization rewrote nothing, so that claim is `True`.
-/
import proofs.«116659_j31138512896564_2_alg».proof.Defs
import proofs.«116659_j31138512896564_2_alg».proof.Proof.Gen.Kernel
import proofs.«116659_j31138512896564_2_alg».proof.Proof.Gen.Kernel.Frame
import proofs.«116659_j31138512896564_2_alg».proof.Proof.Gen.KernelIdeal
import proofs.«116659_j31138512896564_2_alg».proof.Proof.Gen.KernelIdeal.Frame
import proofs.«116659_j31138512896564_2_alg».proof.Proof.Gen.KernelIdeal.Value
import proofs.«116659_j31138512896564_2_alg».proof.Proof.Gen.ReferenceIdeal
import proofs.«116659_j31138512896564_2_alg».proof.Proof.Gen.ReferenceIdeal.Run
import proofs.«116659_j31138512896564_2_alg».proof.Proof.Gen.ReferenceIdeal.Read
import proofs.«116659_j31138512896564_2_alg».proof.Proof.Gen.Pre_finite_inputs
import proofs.«116659_j31138512896564_2_alg».proof.Proof.KernelValue
import proofs.«116659_j31138512896564_2_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the quotient-form layer of the arguments. -/
theorem algebraic : Cert.algebraic_KernelIdeal_ReferenceIdeal := by
  intro m ρ m' ρ' _ hagree
  refine ⟨fun c => Cert.Sage.layerDiv
      (Cert.ReferenceIdeal.Read.val_main_v13 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (Cert.ReferenceIdeal.Read.val_main_v19 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.value m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.Layer.ref_is_layer,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
